-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x256 : Shape := ⟨3, ![64, 1024, 256]⟩
abbrev S64x2 : Shape := ⟨2, ![64, 2]⟩
abbrev S_ : Shape := ⟨0, ![]⟩

class Facts : Prop where
  bcast_S_S64x1024x256 : S_.BroadcastsInDim S64x1024x256 (![] : Fin 0 → Fin S64x1024x256.rank)
  reducesTo_S64x1024x256_S_d0_1_2 : S64x1024x256.ReducesTo [0, 1, 2] S_
  h_S_ : 0 < S_.numel

variable [Facts]

def fn {F : FTy → Type} [FloatOps F] (main_arg0 : FVec F S64x1024x256 .f32) (main_arg1 : IVec S64x2 32) : IVec S_ 1 :=
  let main_v0 : FVec F S64x1024x256 .f32 := Host.absf main_arg0
  let main_cst : FVec F S_ .f32 := constant S_ .f32 0x7F800000#32
  let main_v1 : FVec F S64x1024x256 .f32 := broadcastInDim S64x1024x256 ![] bcast_S_S64x1024x256 main_cst
  let main_v2 : IVec S64x1024x256 1 := cmpf .olt main_v0 main_v1
  let main_c : IVec S_ 1 := constantI S_ 1 1#1
  let main_v3 : IVec S_ 1 := (fun x v => Host.reduce IntOp.andi x v reducesTo_S64x1024x256_S_d0_1_2 h_S_) main_v2 main_c
  main_v3
-- ==== Kernel.lean ====
abbrev S64x1024x256 : Shape := ⟨3, ![64, 1024, 256]⟩
abbrev S64x2 : Shape := ⟨2, ![64, 2]⟩
abbrev S64x2x1 : Shape := ⟨3, ![64, 2, 1]⟩
abbrev S_ : Shape := ⟨0, ![]⟩
abbrev S1 : Shape := ⟨1, ![1]⟩
abbrev S1x1x1 : Shape := ⟨3, ![1, 1, 1]⟩
abbrev S64x2x256 : Shape := ⟨3, ![64, 2, 256]⟩
abbrev S64x1x512 : Shape := ⟨3, ![64, 1, 512]⟩
abbrev S64x1024x768 : Shape := ⟨3, ![64, 1024, 768]⟩
abbrev S4x1024x256 : Shape := ⟨3, ![4, 1024, 256]⟩
abbrev S4x1x512 : Shape := ⟨3, ![4, 1, 512]⟩
abbrev S4x1024x768 : Shape := ⟨3, ![4, 1024, 768]⟩
abbrev S4x512x512 : Shape := ⟨3, ![4, 512, 512]⟩

abbrev nBuf : Space → Nat
  | .hbm => 27
  | .vmem => 6
  | .smem => 0
  | _ => 0

abbrev bufTy : (tb : Table) → Fin (tcTables nBuf tb) → BufTy
  | .hbm, ⟨0, _⟩ => ⟨S64x1024x256, .f32⟩
  | .hbm, ⟨1, _⟩ => ⟨S64x2, .i32⟩
  | .hbm, ⟨2, _⟩ => ⟨S64x2x1, .i32⟩
  | .hbm, ⟨3, _⟩ => ⟨S_, .i32⟩
  | .hbm, ⟨4, _⟩ => ⟨S64x2x1, .i32⟩
  | .hbm, ⟨5, _⟩ => ⟨S64x2x1, .i1⟩
  | .hbm, ⟨6, _⟩ => ⟨S_, .i32⟩
  | .hbm, ⟨7, _⟩ => ⟨S64x2x1, .i32⟩
  | .hbm, ⟨8, _⟩ => ⟨S64x2x1, .i32⟩
  | .hbm, ⟨9, _⟩ => ⟨S64x2x1, .i32⟩
  | .hbm, ⟨10, _⟩ => ⟨S1, .i32⟩
  | .hbm, ⟨11, _⟩ => ⟨S_, .i32⟩
  | .hbm, ⟨12, _⟩ => ⟨S64x2x1, .i32⟩
  | .hbm, ⟨13, _⟩ => ⟨S64x2x1, .i1⟩
  | .hbm, ⟨14, _⟩ => ⟨S1x1x1, .i32⟩
  | .hbm, ⟨15, _⟩ => ⟨S64x2x1, .i32⟩
  | .hbm, ⟨16, _⟩ => ⟨S64x2x1, .i1⟩
  | .hbm, ⟨17, _⟩ => ⟨S64x2x1, .i1⟩
  | .hbm, ⟨18, _⟩ => ⟨S_, .i1⟩
  | .hbm, ⟨19, _⟩ => ⟨S64x2, .i1⟩
  | .hbm, ⟨20, _⟩ => ⟨S64x2x256, .f32⟩
  | .hbm, ⟨21, _⟩ => ⟨S64x2x256, .i1⟩
  | .hbm, ⟨22, _⟩ => ⟨S_, .f32⟩
  | .hbm, ⟨23, _⟩ => ⟨S64x2x256, .f32⟩
  | .hbm, ⟨24, _⟩ => ⟨S64x2x256, .f32⟩
  | .hbm, ⟨25, _⟩ => ⟨S64x1x512, .f32⟩
  | .hbm, ⟨26, _⟩ => ⟨S64x1024x768, .f32⟩
  | .local _ .vmem, ⟨0, _⟩ => ⟨S4x1024x256, .f32⟩
  | .local _ .vmem, ⟨1, _⟩ => ⟨S4x1024x256, .f32⟩
  | .local _ .vmem, ⟨2, _⟩ => ⟨S4x1x512, .f32⟩
  | .local _ .vmem, ⟨3, _⟩ => ⟨S4x1x512, .f32⟩
  | .local _ .vmem, ⟨4, _⟩ => ⟨S4x1024x768, .f32⟩
  | .local _ .vmem, ⟨5, _⟩ => ⟨S4x1024x768, .f32⟩
  | _, _ => ⟨S64x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_c_2 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_3 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c512_i32 : BitVec 32 := 512#32
  let v4 : BitVec 32 := Scalar.muli c0_i32 c512_i32
  v4
def k0_off1 (c0_i32 : BitVec 32) : Fin 3 → Nat :=
  let c0_8 : Index := 0#32
  let c512_i32 : BitVec 32 := 512#32
  let v4 : BitVec 32 := Scalar.muli c0_i32 c512_i32
  let v5 : BitVec 32 := v4
  let v8 : Index := Scalar.indexCast v5
  let c256 : Index := 256#32
  ![0, v8.toNat, 256]
def k0_mult2 : BitVec 32 :=
  let c1_i32 : BitVec 32 := 1#32
  let c512_i32_9 : BitVec 32 := 512#32
  let v10 : BitVec 32 := Scalar.muli c1_i32 c512_i32_9
  v10
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S64x2_S64x2x1_0_1 : S64x2.BroadcastsInDim S64x2x1 (![0, 1] : Fin 2 → Fin S64x2x1.rank)
  bcast_S_S64x2x1 : S_.BroadcastsInDim S64x2x1 (![] : Fin 0 → Fin S64x2x1.rank)
  bcast_S1_S1x1x1_2 : S1.BroadcastsInDim S1x1x1 (![2] : Fin 1 → Fin S1x1x1.rank)
  bcast_S1x1x1_S64x2x1_0_1_2 : S1x1x1.BroadcastsInDim S64x2x1 (![0, 1, 2] : Fin 3 → Fin S64x2x1.rank)
  reducesTo_S64x2x1_S64x2_d2 : S64x2x1.ReducesTo [2] S64x2
  h_S_ : 0 < S_.numel
  bcast_S64x2_S64x2x256_0_1 : S64x2.BroadcastsInDim S64x2x256 (![0, 1] : Fin 2 → Fin S64x2x256.rank)
  bcast_S_S64x2x256 : S_.BroadcastsInDim S64x2x256 (![] : Fin 0 → Fin S64x2x256.rank)
  shapeCasts_S64x2x256_S64x1x512 : S64x2x256.ShapeCasts S64x1x512
  inb_S4x1024x256_S4x1024x256_0_0_0 : ∀ a, (![0, 0, 0] : Fin 3 → Nat) a + S4x1024x256.size a ≤ S4x1024x256.size a
  h_S4x1024x256 : 0 < S4x1024x256.numel
  inb_S4x1024x768_S4x1024x256_0_0_0 : ∀ a, (![0, 0, 0] : Fin 3 → Nat) a + S4x1024x256.size a ≤ S4x1024x768.size a
  inb_S4x1x512_S4x1x512_0_0_0 : ∀ a, (![0, 0, 0] : Fin 3 → Nat) a + S4x1x512.size a ≤ S4x1x512.size a
  h_S4x1x512 : 0 < S4x1x512.numel
  shapeCasts_S4x1x512_S4x1x512 : S4x1x512.ShapeCasts S4x1x512
  broadcasts_S4x1x512_S4x512x512 : S4x1x512.Broadcasts S4x512x512
  h_S4x512x512 : 0 < S4x512x512.numel
  gather_S64x1024x256_S64x2x1_S64x2x256_2_1_0_0_1_2_11256_wf : GatherDims.WF S64x1024x256 S64x2x1 S64x2x256 [2] [1] [0] [1] [0] 2 ![1, 1, 256]
  hrank0 : 0 < grid0.rank
  k0_mult1_dvd : 512 ∣ k0_mult1.toNat
  k0_off1_inb : ∀ (r : Fin 2), ∀ a, (k0_off1 (BitVec.ofNat 32 r.val)) a + S4x512x512.size a ≤ S4x1024x768.size a
  k0_mult2_dvd : 512 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x256.size a ≤ S64x1024x256.size a
  hwx0_0 : ∀ i : grid0.Coords, EltTy.bits .f32 = 32 ∨ (Rect.block (s := S64x1024x256) S4x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1x512.size a ≤ S64x1x512.size a
  hwx0_1 : ∀ i : grid0.Coords, EltTy.bits .f32 = 32 ∨ (Rect.block (s := S64x1x512) S4x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1024x768.size a ≤ S64x1024x768.size a
  hwx0_2 : ∀ i : grid0.Coords, EltTy.bits .f32 = 32 ∨ (Rect.block (s := S64x1024x768) S4x1024x768.size (cc0_transform_2 i) (hinb0_2 i)).WholeWords (EltTy.packing .f32)

variable [Facts₀]

def gather_S64x1024x256_S64x2x1_S64x2x256_2_1_0_0_1_2_11256 : GatherDims S64x1024x256 S64x2x1 S64x2x256 where
  offsetDims := [2]
  collapsedSliceDims := [1]
  operandBatchingDims := [0]
  startIndicesBatchingDims := [0]
  startIndexMap := [1]
  indexVectorDim := 2
  sliceSizes := ![1, 1, 256]
  wf := gather_S64x1024x256_S64x2x1_S64x2x256_2_1_0_0_1_2_11256_wf

abbrev win0_0 : Pipeline.Window sig grid0 :=
  Pipeline.Window.ofSpec (Memref.whole main_arg0) S4x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4x1024x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x1024x256 : Shape := ⟨3, ![64, 1024, 256]⟩
abbrev S64x2 : Shape := ⟨2, ![64, 2]⟩
abbrev S64x2x1 : Shape := ⟨3, ![64, 2, 1]⟩
abbrev S_ : Shape := ⟨0, ![]⟩
abbrev S1 : Shape := ⟨1, ![1]⟩
abbrev S1x1x1 : Shape := ⟨3, ![1, 1, 1]⟩
abbrev S64x2x256 : Shape := ⟨3, ![64, 2, 256]⟩
abbrev S64x512 : Shape := ⟨2, ![64, 512]⟩
abbrev S64x1x512 : Shape := ⟨3, ![64, 1, 512]⟩
abbrev S64x1024x512 : Shape := ⟨3, ![64, 1024, 512]⟩
abbrev S64x1024x768 : Shape := ⟨3, ![64, 1024, 768]⟩

abbrev nBuf : Space → Nat
  | .hbm => 29
  | .vmem => 0
  | .smem => 0
  | _ => 0

abbrev bufTy : (tb : Table) → Fin (tcTables nBuf tb) → BufTy
  | .hbm, ⟨0, _⟩ => ⟨S64x1024x256, .f32⟩
  | .hbm, ⟨1, _⟩ => ⟨S64x2, .i32⟩
  | .hbm, ⟨2, _⟩ => ⟨S64x2x1, .i32⟩
  | .hbm, ⟨3, _⟩ => ⟨S_, .i32⟩
  | .hbm, ⟨4, _⟩ => ⟨S64x2x1, .i32⟩
  | .hbm, ⟨5, _⟩ => ⟨S64x2x1, .i1⟩
  | .hbm, ⟨6, _⟩ => ⟨S_, .i32⟩
  | .hbm, ⟨7, _⟩ => ⟨S64x2x1, .i32⟩
  | .hbm, ⟨8, _⟩ => ⟨S64x2x1, .i32⟩
  | .hbm, ⟨9, _⟩ => ⟨S64x2x1, .i32⟩
  | .hbm, ⟨10, _⟩ => ⟨S1, .i32⟩
  | .hbm, ⟨11, _⟩ => ⟨S_, .i32⟩
  | .hbm, ⟨12, _⟩ => ⟨S64x2x1, .i32⟩
  | .hbm, ⟨13, _⟩ => ⟨S64x2x1, .i1⟩
  | .hbm, ⟨14, _⟩ => ⟨S1x1x1, .i32⟩
  | .hbm, ⟨15, _⟩ => ⟨S64x2x1, .i32⟩
  | .hbm, ⟨16, _⟩ => ⟨S64x2x1, .i1⟩
  | .hbm, ⟨17, _⟩ => ⟨S64x2x1, .i1⟩
  | .hbm, ⟨18, _⟩ => ⟨S_, .i1⟩
  | .hbm, ⟨19, _⟩ => ⟨S64x2, .i1⟩
  | .hbm, ⟨20, _⟩ => ⟨S64x2x256, .f32⟩
  | .hbm, ⟨21, _⟩ => ⟨S64x2x256, .i1⟩
  | .hbm, ⟨22, _⟩ => ⟨S_, .f32⟩
  | .hbm, ⟨23, _⟩ => ⟨S64x2x256, .f32⟩
  | .hbm, ⟨24, _⟩ => ⟨S64x2x256, .f32⟩
  | .hbm, ⟨25, _⟩ => ⟨S64x512, .f32⟩
  | .hbm, ⟨26, _⟩ => ⟨S64x1x512, .f32⟩
  | .hbm, ⟨27, _⟩ => ⟨S64x1024x512, .f32⟩
  | .hbm, ⟨28, _⟩ => ⟨S64x1024x768, .f32⟩
  | _, _ => ⟨S64x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_c_2 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_3 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩

abbrev nD : Nat := 1
abbrev τ : Topo := Topo.v7x

variable {F : FTy → Type} [FloatOps F]

class Facts₀ : Prop where
  bcast_S64x2_S64x2x1_0_1 : S64x2.BroadcastsInDim S64x2x1 (![0, 1] : Fin 2 → Fin S64x2x1.rank)
  bcast_S_S64x2x1 : S_.BroadcastsInDim S64x2x1 (![] : Fin 0 → Fin S64x2x1.rank)
  bcast_S1_S1x1x1_2 : S1.BroadcastsInDim S1x1x1 (![2] : Fin 1 → Fin S1x1x1.rank)
  bcast_S1x1x1_S64x2x1_0_1_2 : S1x1x1.BroadcastsInDim S64x2x1 (![0, 1, 2] : Fin 3 → Fin S64x2x1.rank)
  reducesTo_S64x2x1_S64x2_d2 : S64x2x1.ReducesTo [2] S64x2
  h_S_ : 0 < S_.numel
  bcast_S64x2_S64x2x256_0_1 : S64x2.BroadcastsInDim S64x2x256 (![0, 1] : Fin 2 → Fin S64x2x256.rank)
  bcast_S_S64x2x256 : S_.BroadcastsInDim S64x2x256 (![] : Fin 0 → Fin S64x2x256.rank)
  shapeCasts_S64x2x256_S64x512 : S64x2x256.ShapeCasts S64x512
  bcast_S64x512_S64x1x512_0_2 : S64x512.BroadcastsInDim S64x1x512 (![0, 2] : Fin 2 → Fin S64x1x512.rank)
  bcast_S64x1x512_S64x1024x512_0_1_2 : S64x1x512.BroadcastsInDim S64x1024x512 (![0, 1, 2] : Fin 3 → Fin S64x1024x512.rank)
  concatenates_S64x1024x256_S64x1024x512_S64x1024x768_d2 : Shape.Concatenates [S64x1024x256, S64x1024x512] S64x1024x768 2
  gather_S64x1024x256_S64x2x1_S64x2x256_2_1_0_0_1_2_11256_wf : GatherDims.WF S64x1024x256 S64x2x1 S64x2x256 [2] [1] [0] [1] [0] 2 ![1, 1, 256]

variable [Facts₀]

def gather_S64x1024x256_S64x2x1_S64x2x256_2_1_0_0_1_2_11256 : GatherDims S64x1024x256 S64x2x1 S64x2x256 where
  offsetDims := [2]
  collapsedSliceDims := [1]
  operandBatchingDims := [0]
  startIndicesBatchingDims := [0]
  startIndexMap := [1]
  indexVectorDim := 2
  sliceSizes := ![1, 1, 256]
  wf := gather_S64x1024x256_S64x2x1_S64x2x256_2_1_0_0_1_2_11256_wf

class Facts : Prop extends Facts₀ where

variable [Facts]
-- ==== Proof.Spec.lean ====
/-
  The array both programs compute, as one function of the argument array `x : [64, 1024, 256]` and of the
  gathered rows, index by index.

  Row `(b, l)` of the result has 768 columns: the first 256 are row `(b, l)` of `x` itself; the last 512 are
  the two gathered rows of batch entry `b` laid end to end — column `256 + j` holds column `j % 256` of
  gathered row `j / 256`. The last 512 columns do not depend on `l`.

  Three forms of the same function are stated here, over any element type:
  * `widen x g`, with the gathered rows as they come, `g : [64, 2, 256]`;
  * `widenFlat x f`, with the two gathered rows of a batch entry already laid end to end, `f : [64, 1, 512]`
    (row-major relaying of `g`: `f (b, 0, j) = g (b, j / 256, j % 256)`);
  * `widenBlock x f`, the same as `widenFlat` over four batch entries only: one block of the grid.
  `widenFlat_eq_widen` says the first two agree when `f` is that relaying of `g`; `widenBlock_eq` says block `q`
  (batch entries `4 q` to `4 q + 3`) of `widenFlat x f` is `widenBlock` of block `q` of `x` and block `q` of `f`:
  the function never mixes batch entries, so it may be computed four entries at a time.
-/
import Idealize.ShloMosaic.PureOps.Ideal
import Idealize.ShloMosaic.Lib.ValueIdx

noncomputable section

namespace Cert.Widen

open Idealize.ShloMosaic Idealize.ShloMosaic.ValueIdx

/-- The argument array's shape. -/
abbrev SX : Shape := ⟨3, ![64, 1024, 256]⟩
/-- The gathered rows' shape: two rows of 256 per batch entry. -/
abbrev SG : Shape := ⟨3, ![64, 2, 256]⟩
/-- The gathered rows laid end to end: one row of 512 per batch entry. -/
abbrev SF : Shape := ⟨3, ![64, 1, 512]⟩
/-- The result's shape. -/
abbrev SO : Shape := ⟨3, ![64, 1024, 768]⟩
/-- One block of four batch entries of the argument array, -/
abbrev BX : Shape := ⟨3, ![4, 1024, 256]⟩
/-- of the gathered rows laid end to end, -/
abbrev BF : Shape := ⟨3, ![4, 1, 512]⟩
/-- and of the result. -/
abbrev BO : Shape := ⟨3, ![4, 1024, 768]⟩

variable {α : Type}

/-- The result from `x` and the gathered rows `g`: column `c < 256` of row `(b, l)` is `x (b, l, c)`; column
    `c ≥ 256` is `g (b, (c - 256) / 256, (c - 256) % 256)`. -/
def widen (x : SX.Idx → α) (g : SG.Idx → α) : SO.Idx → α := fun i =>
  if h : (i 2).val < 256 then
    x (ix3 (⟨(i 0).val, (i 0).isLt⟩ : Fin 64) (⟨(i 1).val, (i 1).isLt⟩ : Fin 1024) (⟨(i 2).val, h⟩ : Fin 256))
  else
    g (ix3 (⟨(i 0).val, (i 0).isLt⟩ : Fin 64)
      (⟨((i 2).val - 256) / 256, by have h2 : (i 2).val < 768 := (i 2).isLt; omega⟩ : Fin 2)
      (⟨((i 2).val - 256) % 256, Nat.mod_lt _ (by decide)⟩ : Fin 256))

/-- The same from the gathered rows laid end to end: column `c ≥ 256` is `f (b, 0, c - 256)`. -/
def widenFlat (x : SX.Idx → α) (f : SF.Idx → α) : SO.Idx → α := fun i =>
  if h : (i 2).val < 256 then
    x (ix3 (⟨(i 0).val, (i 0).isLt⟩ : Fin 64) (⟨(i 1).val, (i 1).isLt⟩ : Fin 1024) (⟨(i 2).val, h⟩ : Fin 256))
  else
    f (ix3 (⟨(i 0).val, (i 0).isLt⟩ : Fin 64) (0 : Fin 1)
      (⟨(i 2).val - 256, by have h2 : (i 2).val < 768 := (i 2).isLt; omega⟩ : Fin 512))

/-- One block of it: four batch entries. -/
def widenBlock (x : BX.Idx → α) (f : BF.Idx → α) : BO.Idx → α := fun i =>
  if h : (i 2).val < 256 then
    x (ix3 (⟨(i 0).val, (i 0).isLt⟩ : Fin 4) (⟨(i 1).val, (i 1).isLt⟩ : Fin 1024) (⟨(i 2).val, h⟩ : Fin 256))
  else
    f (ix3 (⟨(i 0).val, (i 0).isLt⟩ : Fin 4) (0 : Fin 1)
      (⟨(i 2).val - 256, by have h2 : (i 2).val < 768 := (i 2).isLt; omega⟩ : Fin 512))

/-- When `f` is `g` with each batch entry's two rows laid end to end, the two forms are one function. -/
theorem widenFlat_eq_widen (x : SX.Idx → α) (g : SG.Idx → α) (f : SF.Idx → α)
    (hf : ∀ (b : Fin 64) (j : Fin 512), f (ix3 b (0 : Fin 1) j)
      = g (ix3 b (⟨j.val / 256, by have := j.isLt; omega⟩ : Fin 2) (⟨j.val % 256, Nat.mod_lt _ (by decide)⟩ : Fin 256))) :
    widenFlat x f = widen x g := by
  funext i
  unfold widenFlat widen
  by_cases h : (i 2).val < 256
  · rw [dif_pos h, dif_pos h]
  · rw [dif_neg h, dif_neg h, hf]

/-- Block `q` of `widenFlat x f` is `widenBlock` of block `q` of `x` and of `f`: at an index `y` of the block and
    the array index `i` it stands for (batch entry `4 q + y 0`, the same row and column), given that `xb` and `fb`
    are the blocks of `x` and `f` at batch offset `4 q`. -/
theorem widenBlock_eq (x : SX.Idx → α) (f : SF.Idx → α) (xb : BX.Idx → α) (fb : BF.Idx → α) (q : Nat)
    (hx : ∀ (b : Fin 4) (l : Fin 1024) (d : Fin 256) (hb : 4 * q + b.val < 64),
      xb (ix3 b l d) = x (ix3 (⟨4 * q + b.val, hb⟩ : Fin 64) l d))
    (hfb : ∀ (b : Fin 4) (j : Fin 512) (hb : 4 * q + b.val < 64),
      fb (ix3 b (0 : Fin 1) j) = f (ix3 (⟨4 * q + b.val, hb⟩ : Fin 64) (0 : Fin 1) j))
    (y : BO.Idx) (i : SO.Idx) (h0 : (i 0).val = 4 * q + (y 0).val) (h1 : (i 1).val = (y 1).val)
    (h2 : (i 2).val = (y 2).val) :
    widenBlock xb fb y = widenFlat x f i := by
  have hi0 : (i 0).val < 64 := (i 0).isLt
  unfold widenBlock widenFlat
  by_cases h : (y 2).val < 256
  · have h' : (i 2).val < 256 := by omega
    rw [dif_pos h, dif_pos h', hx _ _ _ (by show 4 * q + (y 0).val < 64; omega)]
    refine congrArg x (funext fun a => Fin.ext ?_)
    match a with
    | ⟨0, _⟩ => show 4 * q + (y 0).val = (i 0).val; omega
    | ⟨1, _⟩ => show (y 1).val = (i 1).val; omega
    | ⟨2, _⟩ => show (y 2).val = (i 2).val; omega
  · have h' : ¬ (i 2).val < 256 := by omega
    rw [dif_neg h, dif_neg h', hfb _ _ (by show 4 * q + (y 0).val < 64; omega)]
    refine congrArg f (funext fun a => Fin.ext ?_)
    match a with
    | ⟨0, _⟩ => show 4 * q + (y 0).val = (i 0).val; omega
    | ⟨1, _⟩ => rfl
    | ⟨2, _⟩ => show (y 2).val - 256 = (i 2).val - 256; omega

end Cert.Widen

end
-- ==== Proof.RefValue.lean ====
/-
  The reference's result is `widen` of the argument array and the gathered rows.

  After the gather the reference reshapes the gathered rows [64, 2, 256] to [64, 512] (row-major: column
  `256 k + d` of batch entry `b` is `(b, k, d)`), adds a unit row axis, repeats the row 1024 times, and
  joins the result to the argument array along the column axis. Read at an index `(b, l, c)`: the
  join reads the argument array when `c < 256` and the repeated rows at column `c - 256` otherwise; the
  repetition forgets `l`; the reshape sends column `j` to gathered row `j / 256`, column `j % 256`.
  The gather itself is never opened: it enters only as the stage `val_main_v1 x0 x1`.
-/
import proofs.«139488_j72507637891611_2_alg».proof.Proof.Gen.ReferenceIdeal.Read
import proofs.«139488_j72507637891611_2_alg».proof.Proof.Spec
import Idealize.ShloMosaic.Lib.Pipeline.Value
import Idealize.ShloMosaic.Lib.ValueIdx

noncomputable section

namespace Cert.Widen.Ref

open Idealize.ShloMosaic Idealize.ShloMosaic.ValueIdx
open Cert.ReferenceIdeal Cert.ReferenceIdeal.Gen Cert.ReferenceIdeal.Read

variable {F : FTy → Type} [FloatOps F]

/-- The repeated rows at `(b, l, j)`: gathered row `j / 256` of batch entry `b`, column `j % 256`, whatever `l`. -/
theorem tail_apply (x0 : (⟨S64x1024x256, .f32⟩ : BufTy).Contents (Elt F)) (x1 : (⟨S64x2, .i32⟩ : BufTy).Contents (Elt F))
    (b : Fin 64) (l : Fin 1024) (j : Fin 512) :
    val_main_v4 (F := F) x0 x1 (ix3 b l j)
      = val_main_v1 (F := F) x0 x1 (ix3 b (⟨j.val / 256, by have := j.isLt; omega⟩ : Fin 2)
          (⟨j.val % 256, Nat.mod_lt _ (by decide)⟩ : Fin 256)) := by
  rw [val_main_v4_apply, val_main_v3_apply, val_main_v2_apply]
  refine congrArg _ (funext fun a => Fin.ext ?_)
  have hb : b.val < 64 := b.isLt
  have hj : j.val < 512 := j.isLt
  match a with
  | ⟨0, _⟩ => show (b.val * 512 + j.val) / 512 = b.val; omega
  | ⟨1, _⟩ => show (b.val * 512 + j.val) / 256 % 2 = j.val / 256; omega
  | ⟨2, _⟩ => show (b.val * 512 + j.val) % 256 = j.val % 256; omega

/-- The reference's result, index by index, is `widen` of the argument array and the gathered rows. -/
theorem result_eq (x0 : (⟨S64x1024x256, .f32⟩ : BufTy).Contents (Elt F)) (x1 : (⟨S64x2, .i32⟩ : BufTy).Contents (Elt F)) :
    val_main_v5 (F := F) x0 x1 = Cert.Widen.widen x0 (val_main_v1 (F := F) x0 x1) := by
  funext i
  obtain ⟨b, l, c, rfl⟩ : ∃ (b : Fin 64) (l : Fin 1024) (c : Fin 768), i = ix3 b l c := ⟨i 0, i 1, i 2, eq_ix3 i⟩
  unfold val_main_v5 Cert.Widen.widen
  have hc768 : c.val < 768 := c.isLt
  by_cases h : ((ix3 b l c : Cert.Widen.SO.Idx) 2).val < 256
  · rw [dif_pos h]
    exact concatenate_pair_apply_left (2 : Fin 3) x0 (val_main_v4 (F := F) x0 x1)
      concatenates_S64x1024x256_S64x1024x512_S64x1024x768_d2 (ix3 b l c) rfl
      (ix3 (⟨b.val, b.isLt⟩ : Fin 64) (⟨l.val, l.isLt⟩ : Fin 1024) (⟨c.val, h⟩ : Fin 256))
      (fun a => by match a with | ⟨0, _⟩ => rfl | ⟨1, _⟩ => rfl | ⟨2, _⟩ => rfl)
  · rw [dif_neg h]
    have hc : ¬ c.val < 256 := h
    refine (concatenate_pair_apply_right (2 : Fin 3) x0 (val_main_v4 (F := F) x0 x1)
      concatenates_S64x1024x256_S64x1024x512_S64x1024x768_d2 (ix3 b l c) rfl rfl
      (ix3 b l (⟨c.val - 256, by omega⟩ : Fin 512))
      (fun a ha => by match a with | ⟨0, _⟩ => rfl | ⟨1, _⟩ => rfl | ⟨2, _⟩ => exact absurd rfl ha)
      (by show (c.val - 256) + 256 = c.val; omega)).trans ?_
    rw [tail_apply]

end Cert.Widen.Ref

end
-- ==== Proof.Body.lean ====
/-
  What the kernel body leaves in the output block, as a function of the two input blocks.

  The body makes three stores into the [4, 1024, 768] output block, each through a whole rectangle: the
  [4, 1024, 256] block of the argument array into columns 0–255; the block of gathered rows [4, 1, 512],
  repeated over 512 rows, into rows 0–511 of columns 256–767; and the same again into rows 512–1023.
  The three rectangles are disjoint and fill the block, so at an index `(b, l, c)` exactly one store is
  read: the argument block at `(b, l, c)` when `c < 256`, and the gathered block at `(b, 0, c - 256)`
  otherwise, whichever half `l` lies in. That is `widenBlock` of the two input blocks.
-/
import proofs.«139488_j72507637891611_2_alg».proof.Proof.Gen.KernelIdeal.Frame
import proofs.«139488_j72507637891611_2_alg».proof.Proof.Spec
import Idealize.ShloMosaic.Lib.Pipeline.Value
import Idealize.ShloMosaic.Lib.ValueIdx

noncomputable section

namespace Cert.Widen.Body

open Idealize.ShloMosaic Idealize.ShloMosaic.ValueIdx Idealize.ShloMosaic.TcCoe Idealize.SL.Sem
open Cert.KernelIdeal Cert.KernelIdeal.Gen

variable {F : FTy → Type} [FloatOps F]

theorem hz3 : (![0, 0, 0] : Fin 3 → Nat) = fun _ => 0 := funext fun a => by fin_cases a <;> rfl

/-- A [4, 1, 512] block repeated over 512 rows, read at `(b, l, j)`: the block at `(b, 0, j)`. -/
theorem repeat_apply (v : S4x1x512.Idx → Elt F .f32) (b : Fin 4) (l : Fin 512) (j : Fin 512) :
    broadcastTo S4x512x512 v broadcasts_S4x1x512_S4x512x512 (ix3 b l j) = v (ix3 b (0 : Fin 1) j) :=
  broadcastTo_apply v broadcasts_S4x1x512_S4x512x512 (ix3 b l j) (ix3 b (0 : Fin 1) j) (fun a => by
    match a with
    | ⟨0, _⟩ => show b.val = if (4 : Nat) = 1 then 0 else b.val; rw [if_neg (by decide)]
    | ⟨1, _⟩ => show 0 = if (1 : Nat) = 1 then 0 else l.val; rw [if_pos rfl]
    | ⟨2, _⟩ => show j.val = if (512 : Nat) = 1 then 0 else j.val; rw [if_neg (by decide)])

/-- The value stored into rows 0–511 of the last 512 columns, read at an index. -/
theorem pay2_apply (v : Vec F S4x1x512 .f32) (b : Fin 4) (l : Fin 512) (j : Fin 512) :
    k0_pay2 v (ix3 b l j) = v (ix3 b (0 : Fin 1) j) := by
  unfold k0_pay2 k0_pay1
  dsimp only
  rw [shapeCast_self, shapeCast_self]
  exact repeat_apply v b l j

/-- The value stored into rows 512–1023 of the last 512 columns, read at an index: the same. -/
theorem pay3_apply (v : Vec F S4x1x512 .f32) (b : Fin 4) (l : Fin 512) (j : Fin 512) :
    k0_pay3 v (ix3 b l j) = v (ix3 b (0 : Fin 1) j) := by
  unfold k0_pay3 k0_pay1
  dsimp only
  rw [shapeCast_self, shapeCast_self]
  exact repeat_apply v b l j

/-- The three stores read back at `(b, l, c)`. The stores are listed last first; an index with `c < 256` lies in
    neither of the two later rectangles (both start at column 256) and is the first store's own index
    `(b, l, c)`; an index with `c ≥ 256` and `l ≥ 512` is the last store's index `(b, l - 512, c - 256)`; one with
    `c ≥ 256` and `l < 512` misses the last rectangle (it starts at row 512) and is the middle store's index
    `(b, l, c - 256)`. -/
theorem stores_apply (p3 p2 : S4x512x512.Idx → Elt F .f32) (p1 : S4x1024x256.Idx → Elt F .f32)
    (inb3 : ∀ a, (![0, 512, 256] : Fin 3 → Nat) a + (![4, 512, 512] : Fin 3 → Nat) a ≤ S4x1024x768.size a)
    (inb2 : ∀ a, (![0, 0, 256] : Fin 3 → Nat) a + (![4, 512, 512] : Fin 3 → Nat) a ≤ S4x1024x768.size a)
    (inb1 : ∀ a, (![0, 0, 0] : Fin 3 → Nat) a + (![4, 1024, 256] : Fin 3 → Nat) a ≤ S4x1024x768.size a)
    (b : Fin 4) (l : Fin 1024) (c : Fin 768) :
    View.canon (Val := Elt F) (s := S4x1024x768) (e := .f32)
        [⟨Rect.unit ![0, 512, 256] ![4, 512, 512] inb3, p3⟩, ⟨Rect.unit ![0, 0, 256] ![4, 512, 512] inb2, p2⟩,
          ⟨Rect.unit ![0, 0, 0] ![4, 1024, 256] inb1, p1⟩] (ix3 b l c)
      = if h : c.val < 256 then p1 (ix3 b l (⟨c.val, h⟩ : Fin 256))
        else if hl : l.val < 512 then
          p2 (ix3 b (⟨l.val, hl⟩ : Fin 512) (⟨c.val - 256, by have := c.isLt; omega⟩ : Fin 512))
        else p3 (ix3 b (⟨l.val - 512, by have := l.isLt; omega⟩ : Fin 512) (⟨c.val - 256, by have := c.isLt; omega⟩ : Fin 512)) := by
  have hb : b.val < 4 := b.isLt
  have hl1024 : l.val < 1024 := l.isLt
  have hc768 : c.val < 768 := c.isLt
  by_cases h : c.val < 256
  · rw [dif_pos h]
    have n3 : (ix3 b l c : S4x1024x768.Idx) ∉ (Rect.unit ![0, 512, 256] ![4, 512, 512] inb3).set := fun hm => by
      have h2 : 256 ≤ c.val ∧ c.val < 256 + 512 := (Rect.mem_set_unit.mp hm) 2
      omega
    have n2 : (ix3 b l c : S4x1024x768.Idx) ∉ (Rect.unit ![0, 0, 256] ![4, 512, 512] inb2).set := fun hm => by
      have h2 : 256 ≤ c.val ∧ c.val < 256 + 512 := (Rect.mem_set_unit.mp hm) 2
      omega
    rw [View.canon_cons_of_not_mem (⟨Rect.unit ![0, 512, 256] ![4, 512, 512] inb3, p3⟩ : View.Piece (Elt F) S4x1024x768 .f32) [(⟨Rect.unit ![0, 0, 256] ![4, 512, 512] inb2, p2⟩ : View.Piece (Elt F) S4x1024x768 .f32), (⟨Rect.unit ![0, 0, 0] ![4, 1024, 256] inb1, p1⟩ : View.Piece (Elt F) S4x1024x768 .f32)] n3,
      View.canon_cons_of_not_mem (⟨Rect.unit ![0, 0, 256] ![4, 512, 512] inb2, p2⟩ : View.Piece (Elt F) S4x1024x768 .f32) [(⟨Rect.unit ![0, 0, 0] ![4, 1024, 256] inb1, p1⟩ : View.Piece (Elt F) S4x1024x768 .f32)] n2]
    have e : (ix3 b l c : S4x1024x768.Idx)
        = (Rect.unit ![0, 0, 0] ![4, 1024, 256] inb1).emb (ix3 b l (⟨c.val, h⟩ : Fin 256)) :=
      funext fun a => Fin.ext (by
        match a with
        | ⟨0, _⟩ => show b.val = 0 + 1 * b.val; omega
        | ⟨1, _⟩ => show l.val = 0 + 1 * l.val; omega
        | ⟨2, _⟩ => show c.val = 0 + 1 * c.val; omega)
    rw [e, View.canon_cons_emb]
  · rw [dif_neg h]
    by_cases hl : l.val < 512
    · rw [dif_pos hl]
      have n3 : (ix3 b l c : S4x1024x768.Idx) ∉ (Rect.unit ![0, 512, 256] ![4, 512, 512] inb3).set := fun hm => by
        have h1 : 512 ≤ l.val ∧ l.val < 512 + 512 := (Rect.mem_set_unit.mp hm) 1
        omega
      rw [View.canon_cons_of_not_mem (⟨Rect.unit ![0, 512, 256] ![4, 512, 512] inb3, p3⟩ : View.Piece (Elt F) S4x1024x768 .f32) [(⟨Rect.unit ![0, 0, 256] ![4, 512, 512] inb2, p2⟩ : View.Piece (Elt F) S4x1024x768 .f32), (⟨Rect.unit ![0, 0, 0] ![4, 1024, 256] inb1, p1⟩ : View.Piece (Elt F) S4x1024x768 .f32)] n3]
      have e : (ix3 b l c : S4x1024x768.Idx)
          = (Rect.unit ![0, 0, 256] ![4, 512, 512] inb2).emb
              (ix3 b (⟨l.val, hl⟩ : Fin 512) (⟨c.val - 256, by omega⟩ : Fin 512)) :=
        funext fun a => Fin.ext (by
          match a with
          | ⟨0, _⟩ => show b.val = 0 + 1 * b.val; omega
          | ⟨1, _⟩ => show l.val = 0 + 1 * l.val; omega
          | ⟨2, _⟩ => show c.val = 256 + 1 * (c.val - 256); omega)
      rw [e, View.canon_cons_emb]
    · rw [dif_neg hl]
      have e : (ix3 b l c : S4x1024x768.Idx)
          = (Rect.unit ![0, 512, 256] ![4, 512, 512] inb3).emb
              (ix3 b (⟨l.val - 512, by omega⟩ : Fin 512) (⟨c.val - 256, by omega⟩ : Fin 512)) :=
        funext fun a => Fin.ext (by
          match a with
          | ⟨0, _⟩ => show b.val = 0 + 1 * b.val; omega
          | ⟨1, _⟩ => show l.val = 512 + 1 * (l.val - 512); omega
          | ⟨2, _⟩ => show c.val = 256 + 1 * (c.val - 256); omega)
      rw [e, View.canon_cons_emb]

/-- THE BODY'S BLOCK: whatever the staging memrefs and the grid point, the output block the body leaves is
    `widenBlock` of the two input blocks. -/
theorem out_eq (c : Dev nD) (i : grid0.Coords) (a1 : Memref sig .tc .vmem S4x1024x256 .f32) (h1 : a1.IsWhole)
    (a2 : Memref sig .tc .vmem S4x1x512 .f32) (h2 : a2.IsWhole) (a3 : Memref sig .tc .vmem S4x1024x768 .f32) (h3 : a3.IsWhole)
    (x0 : Vec F S4x1024x256 .f32) (x1 : Vec F S4x1x512 .f32) :
    out0_A_2 c i a1 h1 a2 h2 a3 h3 x0 x1 = Cert.Widen.widenBlock x0 x1 := by
  unfold out0_A_2
  rw [View.read_writes_junk_eq_canon]
  unfold kernelRun0_A
  dsimp only
  simp only [View.readAt_eq_ld, h1.read_unread, h2.read_unread, View.ld_unit_zero (S := S4x1024x256) hz3,
    View.ld_unit_zero (S := S4x1x512) hz3]
  funext y
  obtain ⟨b, l, cc, rfl⟩ : ∃ (b : Fin 4) (l : Fin 1024) (cc : Fin 768), y = ix3 b l cc := ⟨y 0, y 1, y 2, eq_ix3 y⟩
  refine (stores_apply _ _ _ _ _ _ b l cc).trans ?_
  unfold Cert.Widen.widenBlock
  by_cases h : ((ix3 b l cc : Cert.Widen.BO.Idx) 2).val < 256
  · rw [dif_pos h, dif_pos (show cc.val < 256 from h)]
  · rw [dif_neg h, dif_neg (show ¬ cc.val < 256 from h)]
    by_cases hl : l.val < 512
    · rw [dif_pos hl, pay2_apply]
    · rw [dif_neg hl, pay3_apply]

end Cert.Widen.Body

end
-- ==== Proof.Blocks.lean ====
/-
  From the blocks to the whole array: after the kernel's run the result array is `widen` of the argument
  array and the gathered rows.

  The grid has 16 points; point `t` works on batch entries `4 t` to `4 t + 3`: every window's block index is
  `(t, 0, 0)`, so its block starts at batch entry `4 t`, row 0, column 0. The region finds in its second
  operand the gathered rows with each batch entry's two rows laid end to end (the host's row-major
  reshape [64, 2, 256] → [64, 1, 512] of the gather stage). The body leaves `widenBlock` of its two input
  blocks in the output block (the body module), which is block `t` of `widenFlat` of the two arrays
  (`widenBlock_eq`); the 16 output blocks are disjoint slabs that together hold every index, the slab of
  index `i` being the one of point `i 0 / 4`; so the array ends at `widenFlat`, which is `widen` of the
  argument array and the gathered rows.
-/
import proofs.«139488_j72507637891611_2_alg».proof.Proof.Gen.KernelIdeal.Value
import proofs.«139488_j72507637891611_2_alg».proof.Proof.Gen.ReferenceIdeal.Read
import proofs.«139488_j72507637891611_2_alg».proof.Proof.Body
import proofs.«139488_j72507637891611_2_alg».proof.Proof.Spec
import Idealize.ShloMosaic.Lib.Pipeline.Value
import Idealize.ShloMosaic.Lib.StableHlo.Run
import Idealize.ShloMosaic.Lib.ValueIdx

noncomputable section

namespace Cert.Widen.Blocks

open Idealize.ShloMosaic Idealize.ShloMosaic.ValueIdx Idealize.ShloMosaic.TcCoe Idealize.SL.Sem
open Idealize.ShloMosaic.StableHlo
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-! ## The gathered rows, and what the region finds in its second operand -/

/-- The gathered rows of the launch contents: the gather stage both programs share, as the reference's
    read-back names it. It is never opened. -/
abbrev rows (c : Dev nD) : Cert.Widen.SG.Idx → Elt F .f32 :=
  Cert.ReferenceIdeal.Read.val_main_v1 (F := F) (m ((c : Thread nD τ).loc main_arg0)) (m ((c : Thread nD τ).loc main_arg1))

set_option maxHeartbeats 4000000 in
/-- The host operations before the region leave in `main_v2` the row-major reshape to [64, 1, 512] of the gathered
    rows: the kernel's gather is, operation for operation, the reference's. -/
theorem V_rows (c : Dev nD) :
    (V m c main_v2 : S64x1x512.Idx → Elt F .f32) = shapeCast S64x1x512 (rows m c) shapeCasts_S64x2x256_S64x1x512 := by
  dsimp only [V]
  simp only [hostOps0, hostOps0_1, hostOps0_2, List.flatten_cons, List.flatten_nil, List.append_nil, List.cons_append,
    List.nil_append]
  after_results
  rfl

/-- Read at `(b, 0, j)`: gathered row `j / 256` of batch entry `b`, column `j % 256`. -/
theorem V_rows_apply (c : Dev nD) (b : Fin 64) (j : Fin 512) :
    (V m c main_v2 : S64x1x512.Idx → Elt F .f32) (ix3 b (0 : Fin 1) j)
      = rows m c (ix3 b (⟨j.val / 256, by have := j.isLt; omega⟩ : Fin 2) (⟨j.val % 256, Nat.mod_lt _ (by decide)⟩ : Fin 256)) := by
  rw [V_rows]
  refine shapeCast_apply (rows m c) shapeCasts_S64x2x256_S64x1x512 (ix3 b (0 : Fin 1) j) _ ?_
  rw [Shape.rowMajor_val_three, Shape.rowMajor_val_three]
  have hb : b.val < 64 := b.isLt
  have hj : j.val < 512 := j.isLt
  show (b.val * 2 + j.val / 256) * 256 + j.val % 256 = (b.val * 1 + 0) * 512 + j.val
  omega

/-! ## The windows' blocks -/

/-- The printed index maps, decided over the 16 grid points: every window's block index at point `t` is `(t, 0, 0)`
    — the two inputs move with the output — and stays below 16. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (1 : Fin 3) = 0 ∧ win0_2.index t (2 : Fin 3) = 0 ∧ win0_2.index t (0 : Fin 3) ≤ 15 :=
  (by decide +kernel : ∀ t : Fin grid0.N, _)

/-- Every one of the 16 slabs is some point's block. -/
theorem idx_onto : ∀ q : Fin 16, ∃ t : Fin cfg0.N, win0_2.index t = ![q.val, 0, 0] :=
  (by decide +kernel : ∀ q : Fin 16, ∃ t : Fin grid0.N, win0_2.index t = ![q.val, 0, 0])

/-- WHAT POINT `t` WRITES BACK is block `t` of `widenFlat` of the two arrays the region finds. -/
theorem flushed_eq (c : Dev nD) (t : Fin cfg0.N) :
    (dats m 0 c).flushed 2 t
      = ((cfg0.win 2).blk t).view.read (Elt F) (Cert.Widen.widenFlat (V m c main_arg0) (V m c main_v2)) := by
  rw [Cert.KernelIdeal.Value.flushed2_A, Cert.Widen.Body.out_eq]
  obtain ⟨e00, e01, e02, e10, e11, e12, e21, e22, e2le⟩ := idx_facts t
  funext y
  show Cert.Widen.widenBlock (iblk m c 0 t) (iblk m c 1 t) y
    = Cert.Widen.widenFlat (V m c main_arg0) (V m c main_v2) (((cfg0.win 2).blk t).view.emb y)
  have hy0 : (y 0).val < 4 := (y 0).isLt
  have hy1 : (y 1).val < 1024 := (y 1).isLt
  have hy2 : (y 2).val < 768 := (y 2).isLt
  refine Cert.Widen.widenBlock_eq (V m c main_arg0) (V m c main_v2) (iblk m c 0 t) (iblk m c 1 t)
    (win0_2.index t (0 : Fin 3)) ?_ ?_ y _ ?_ ?_ ?_
  · intro b l d hb
    show V m c main_arg0 (((cfg0.win 0).blk t).view.emb (ix3 b l d)) = _
    refine congrArg (V m c main_arg0) (funext fun a => Fin.ext ?_)
    match a with
    | ⟨0, _⟩ => show win0_0.index t (0 : Fin 3) * 4 + 1 * b.val = 4 * win0_2.index t (0 : Fin 3) + b.val; omega
    | ⟨1, _⟩ => show win0_0.index t (1 : Fin 3) * 1024 + 1 * l.val = l.val; omega
    | ⟨2, _⟩ => show win0_0.index t (2 : Fin 3) * 256 + 1 * d.val = d.val; omega
  · intro b j hb
    show V m c main_v2 (((cfg0.win 1).blk t).view.emb (ix3 b (0 : Fin 1) j)) = _
    refine congrArg (V m c main_v2) (funext fun a => Fin.ext ?_)
    match a with
    | ⟨0, _⟩ => show win0_1.index t (0 : Fin 3) * 4 + 1 * b.val = 4 * win0_2.index t (0 : Fin 3) + b.val; omega
    | ⟨1, _⟩ => show win0_1.index t (1 : Fin 3) * 1 + 1 * 0 = 0; omega
    | ⟨2, _⟩ => show win0_1.index t (2 : Fin 3) * 512 + 1 * j.val = j.val; omega
  · show win0_2.index t (0 : Fin 3) * 4 + 1 * (y 0).val = 4 * win0_2.index t (0 : Fin 3) + (y 0).val; omega
  · show win0_2.index t (1 : Fin 3) * 1024 + 1 * (y 1).val = (y 1).val; omega
  · show win0_2.index t (2 : Fin 3) * 768 + 1 * (y 2).val = (y 2).val; omega

/-- An index of the result array is in point `t`'s block iff each coordinate is in the block's range on its axis. -/
theorem mem_blk (t : Fin cfg0.N) (i : S64x1024x768.Idx) :
    i ∈ ((cfg0.win 2).blk t).view.set ↔ ∀ a : Fin 3, win0_2.index t a * S4x1024x768.size a ≤ (i a).val
      ∧ (i a).val < win0_2.index t a * S4x1024x768.size a + S4x1024x768.size a := by
  show i ∈ ((View.whole main_v3).slice (win0_2.rect t)).set ↔ _
  rw [View.set_slice_whole, Rect.mem_set_unit]
  exact Iff.rfl

/-- Every index of the result array lies in the block of the point that handles its batch entry. -/
theorem cover (i : S64x1024x768.Idx) :
    ∃ t : Fin cfg0.N, (cfg0.win 2).flush t = true ∧ i ∈ ((cfg0.win 2).blk t).view.set := by
  have hi0 : (i 0).val < 64 := (i 0).isLt
  have hi1 : (i 1).val < 1024 := (i 1).isLt
  have hi2 : (i 2).val < 768 := (i 2).isLt
  obtain ⟨t, ht⟩ := idx_onto ⟨(i 0).val / 4, by omega⟩
  have q0 : win0_2.index t (0 : Fin 3) = (i 0).val / 4 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 768 ≤ (i 2).val ∧ (i 2).val < win0_2.index t (2 : Fin 3) * 768 + 768; omega

/-! ## The whole array, and the run -/

/-- THE RESULT ARRAY after the run: `widen` of the argument array and the gathered rows. -/
theorem final (c : Dev nD) :
    (dats m 0 c).arrAt 2 cfg0.N = Cert.Widen.widen (m ((c : Thread nD τ).loc main_arg0)) (rows m c) := by
  rw [(dats m 0 c).arrAt_eq_of_cover 2 (Cert.Widen.widenFlat (V m c main_arg0) (V m c main_v2))
    (fun t _ => flushed_eq m c t) cover, V_main_arg0]
  exact Cert.Widen.widenFlat_eq_widen _ (rows m c) _ (fun b j => V_rows_apply m c b j)

/-- The kernel's run: every weakly fair execution terminates with the result array at `widen` of the argument array
    and the gathered rows, the arguments unchanged. -/
theorem run : θ_run defs (onTc (τ := τ) (main (F := F))) ⟨m, fun _ => 0, ρ⟩ fun r => ∀ c : Dev nD,
      r.2.mem ((c : Thread nD τ).loc main_v3) = Cert.Widen.widen (m ((c : Thread nD τ).loc main_arg0)) (rows m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.Widen.Blocks

end
-- ==== Proof.lean ====
/-
  The kernel widens each row of `x : [64, 1024, 256]` to 768 columns: the row itself, followed by the two rows of
  the same batch entry that `idxs : [64, 2]` selects, laid end to end. Both programs select those rows with the
  same gather (the same operations in the same order, out-of-range positions filled the same way); they differ
  only in how the 512 extra columns reach the result. The reference reshapes the gathered rows to [64, 512],
  repeats them over the 1024 rows and joins them to `x` along the column axis. The kernel reshapes them to
  [64, 1, 512] and, four batch entries at a time, stores the `x` block into columns 0–255 of the output block and
  the repeated gathered block into columns 256–767, in two halves of 512 rows.

  Index by index both are
      result (b, l, c) = x (b, l, c)                                   for c < 256,
      result (b, l, c) = gathered (b, (c - 256) / 256, (c - 256) % 256)  for c ≥ 256
  (`Cert.Widen.widen`). Nothing is computed on the values — every element of the result is one element of `x`
  or of the gathered rows — so the two sides agree on every extended real and the inputs' finiteness is not
  used. The only arithmetic is on indices: row-major relaying of [64, 2, 256] as [64, 1, 512] and as [64, 512]
  send the same element to column `256 k + d`.

  The kernel's side is `Cert.Widen.Blocks.run` (the body's block, then the 16 blocks as one array); the
  reference's is its run read back, with its result identified as `widen` in `Cert.Widen.Ref.result_eq`. The
  three frames are the programs' runs with the result dropped; the idealization rewrote no operation, so
  there is nothing to preserve.
-/
import proofs.«139488_j72507637891611_2_alg».proof.Defs
import proofs.«139488_j72507637891611_2_alg».proof.Proof.Gen.Kernel
import proofs.«139488_j72507637891611_2_alg».proof.Proof.Gen.Kernel.Skeleton
import proofs.«139488_j72507637891611_2_alg».proof.Proof.Gen.Kernel.Launch
import proofs.«139488_j72507637891611_2_alg».proof.Proof.Gen.Kernel.Points
import proofs.«139488_j72507637891611_2_alg».proof.Proof.Gen.Kernel.Frame
import proofs.«139488_j72507637891611_2_alg».proof.Proof.Gen.KernelIdeal
import proofs.«139488_j72507637891611_2_alg».proof.Proof.Gen.KernelIdeal.Skeleton
import proofs.«139488_j72507637891611_2_alg».proof.Proof.Gen.KernelIdeal.Launch
import proofs.«139488_j72507637891611_2_alg».proof.Proof.Gen.KernelIdeal.Points
import proofs.«139488_j72507637891611_2_alg».proof.Proof.Gen.KernelIdeal.Frame
import proofs.«139488_j72507637891611_2_alg».proof.Proof.Gen.ReferenceIdeal
import proofs.«139488_j72507637891611_2_alg».proof.Proof.Gen.KernelIdeal.Value
import proofs.«139488_j72507637891611_2_alg».proof.Proof.Gen.ReferenceIdeal.Run
import proofs.«139488_j72507637891611_2_alg».proof.Proof.Gen.ReferenceIdeal.Read
import proofs.«139488_j72507637891611_2_alg».proof.Proof.Gen.Pre_finite_inputs
import proofs.«139488_j72507637891611_2_alg».proof.Proof.Spec
import proofs.«139488_j72507637891611_2_alg».proof.Proof.RefValue
import proofs.«139488_j72507637891611_2_alg».proof.Proof.Body
import proofs.«139488_j72507637891611_2_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories that agree on the arguments, both programs end with the result array at `widen` of the argument
    array and the gathered rows: the kernel by its blocks, the reference by its run read at an index. -/
theorem algebraic : Cert.algebraic_KernelIdeal_ReferenceIdeal := by
  intro m ρ m' ρ' _ hagree
  refine ⟨_, Cert.Widen.Blocks.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.Widen.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
